-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) (main_arg2 : FVec F S8192x4096 .f32) (main_arg3 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S2x8x128 : Shape := ⟨3, ![2, 8, 128]⟩
abbrev S512x4096 : Shape := ⟨2, ![512, 4096]⟩
abbrev S512x1 : Shape := ⟨2, ![512, 1]⟩
abbrev S1x8x128 : Shape := ⟨3, ![1, 8, 128]⟩
abbrev S8x128 : Shape := ⟨2, ![8, 128]⟩
abbrev S512x32x128 : Shape := ⟨3, ![512, 32, 128]⟩
abbrev S512x128 : Shape := ⟨2, ![512, 128]⟩
abbrev S64x8x128 : Shape := ⟨3, ![64, 8, 128]⟩

abbrev nBuf : Space → Nat
  | .hbm => 18
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S8192, .i1⟩
  | .hbm, ⟨11, _⟩ => ⟨S8192, .f32⟩
  | .hbm, ⟨12, _⟩ => ⟨S8192x1, .f32⟩
  | .hbm, ⟨13, _⟩ => ⟨S2x8x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S512x1, .f32⟩
  | .local _ .vmem, ⟨7, _⟩ => ⟨S512x1, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst : Ref sig .tc := ⟨.hbm, 14, rfl⟩
abbrev main_call0_v8 : Ref sig .tc := ⟨.hbm, 15, rfl⟩
abbrev main_call0_cst_1 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S2x8x128_S_d0_1_2 : S2x8x128.ReducesTo [0, 1, 2] S_
  h_S_ : 0 < S_.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  shapeCasts_S512x4096_S512x32x128 : S512x4096.ShapeCasts S512x32x128
  reduces_S512x32x128_S512x128 : S512x32x128.Reduces [1] S512x128
  shapeCasts_S512x128_S64x8x128 : S512x128.ShapeCasts S64x8x128
  reduces_S64x8x128_S8x128 : S64x8x128.Reduces [0] S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i1⟩
  | .hbm, ⟨27, _⟩ => ⟨S8192, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x4096, .f32⟩
  | .hbm, ⟨35, _⟩ => ⟨S8192x4096, .i1⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  reducesTo_S8192x4096_S_d0_1 : S8192x4096.ReducesTo [0, 1] S_
  h_S_ : 0 < S_.numel

variable [Facts₀]

class Facts : Prop extends Facts₀ where

variable [Facts]
-- ==== Proof.LibLeadBlocks.lean ====
/-
  A sum over a rank-3 array, taken one leading-axis slab at a time.

  An array of shape `[n, a, b]` is `n` slabs of shape `[1, a, b]` stacked along its leading axis: entry `(0, p, q)` of
  slab `k` is entry `(k, p, q)` of the array. The pairs (slab, entry of the slab) are in bijection with the array's
  entries (`leadEquiv`), so in any commutative monoid the sum over the array is the sum over the slabs of each slab's
  sum (`sum_leadBlocks`). This is how an output written back one `[1, a, b]` block per core is summed.
-/
import Idealize.ShloMosaic.Lib.ValueIdx

noncomputable section

open scoped BigOperators

namespace Idealize.ShloMosaic.SumLead

open Idealize.ShloMosaic Idealize.ShloMosaic.ValueIdx

/-- A rank-3 index set with a leading axis of extent `n` is `n` copies of the unit-leading-axis index set. -/
def leadEquiv {n a b : Nat} : Fin n × (⟨3, ![1, a, b]⟩ : Shape).Idx ≃ (⟨3, ![n, a, b]⟩ : Shape).Idx where
  toFun p := ix3 p.1 (⟨(p.2 1).val, (p.2 1).isLt⟩ : Fin a) (⟨(p.2 2).val, (p.2 2).isLt⟩ : Fin b)
  invFun i := (⟨(i 0).val, (i 0).isLt⟩, ix3 (0 : Fin 1) (⟨(i 1).val, (i 1).isLt⟩ : Fin a) (⟨(i 2).val, (i 2).isLt⟩ : Fin b))
  left_inv p := by
    refine Prod.ext rfl (funext fun d => ?_)
    match d with
    | ⟨0, _⟩ => exact Fin.ext (by have h : (p.2 0).val < 1 := (p.2 0).isLt; show 0 = (p.2 0).val; omega)
    | ⟨1, _⟩ => rfl
    | ⟨2, _⟩ => rfl
  right_inv i := by
    funext d
    match d with
    | ⟨0, _⟩ => rfl
    | ⟨1, _⟩ => rfl
    | ⟨2, _⟩ => rfl

/-- So a sum over the array is the sum over the leading coordinate of the sums over the unit blocks. -/
theorem sum_leadBlocks {M : Type*} [AddCommMonoid M] {n a b : Nat} (f : (⟨3, ![n, a, b]⟩ : Shape).Idx → M) :
    ∑ i, f i = ∑ k : Fin n, ∑ y : (⟨3, ![1, a, b]⟩ : Shape).Idx,
      f (ix3 k (⟨(y 1).val, (y 1).isLt⟩ : Fin a) (⟨(y 2).val, (y 2).isLt⟩ : Fin b)) := by
  rw [← Equiv.sum_comp (leadEquiv (n := n) (a := a) (b := b)) f, Fintype.sum_prod_type]
  rfl

end Idealize.ShloMosaic.SumLead

end
-- ==== Proof.OutArray.lean ====
/-
  The output array after the run.

  The output has one `[1, 8, 128]` block per core. A core's block is written back once, after the last of its eight
  points (points `8 k + 7`), and holds what that point's body copied into it; the other points leave the block alone.
  The two blocks are disjoint and cover the `[2, 8, 128]` array, so after the run block `k` of the array is what point
  `8 k + 7` left (`final`), and a sum over the array is the sum of the two blocks' sums (`outArr_total`).
-/
import proofs.«173780_j43757126811747_2_alg».proof.Proof.Gen.KernelIdeal.Frame
import proofs.«173780_j43757126811747_2_alg».proof.Proof.LibLeadBlocks
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx Idealize.ShloMosaic.SumLead
open Idealize.ShloMosaic.Pipeline (Dat)

namespace Cert.KernelIdeal.OutValue

open Cert.KernelIdeal Cert.KernelIdeal.Gen

variable {F : FTy → Type} [FloatOps F]
variable (m : (ℓ : Loc nD τ sig) → Buf (Elt F) ℓ) (c : Dev nD)

/-- What a point leaves in the output's staging buffer, for any natural number (past the grid: the first point's, never used). -/
def rowOut (n : ℕ) : Vec F S1x8x128 .f32 :=
  if h : n < cfg0.N then (outsAt0 m c n h).1 else (outsAt0 m c 0 (by rw [show cfg0.N = 16 from N_0]; decide)).1

theorem rowOut_eq (n : ℕ) (h : n < cfg0.N) : rowOut m c n = (outsAt0 m c n h).1 := dif_pos h

/-- The output array after the run: block `k` is what point `8 k + 7` left. -/
def outArr : Buf (Elt F) ((c : Thread nD τ).loc main_call0_v7) := fun idx =>
  rowOut m c (8 * (idx 0).val + 7) (ix3 (0 : Fin 1) (⟨(idx 1).val, (idx 1).isLt⟩ : Fin 8) (⟨(idx 2).val, (idx 2).isLt⟩ : Fin 128))

theorem idx_out : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

theorem flushed_eq (t : Fin cfg0.N) (hf : (cfg0.win 4).flush t = true) :
    (dats m 0 c).flushed 4 t = ((cfg0.win 4).blk t).view.read (Elt F) (outArr m c) := by
  have h7 : t.val % 8 = 7 := (flush0_4 t).mp hf
  show (cfg0.win 4).cut (grid0.coords t) ((dats m 0 c).after 4 t) = _
  rw [after0_4]
  funext y
  rw [View.read_apply]
  unfold outArr
  have hy0 : (y 0).val < 1 := (y 0).isLt
  have e0 : (((cfg0.win 4).blk t).view.emb y 0).val = t.val / 8 := by
    show win0_4.index t 0 * 1 + 1 * (y 0).val = _
    rw [(idx_out t).1]; omega
  have e : 8 * (((cfg0.win 4).blk t).view.emb y 0).val + 7 = t.val := by rw [e0]; omega
  rw [e]
  unfold rowOut
  rw [dif_pos t.isLt]
  show (outsAt0 m c t.val t.isLt).1 _ = (outsAt0 m c t.val t.isLt).1 _
  refine congrArg _ (funext fun a => Fin.ext ?_)
  match a with
  | ⟨0, _⟩ => show (y 0).val = 0; omega
  | ⟨1, _⟩ => show (y 1).val = win0_4.index t 1 * 8 + 1 * (y 1).val; rw [(idx_out t).2.1]; omega
  | ⟨2, _⟩ => show (y 2).val = win0_4.index t 2 * 128 + 1 * (y 2).val; rw [(idx_out t).2.2]; omega

theorem xsize_out : ∀ t : Fin cfg0.N, win0_4.xsize (grid0.coords t) 0 = 1 ∧ win0_4.xsize (grid0.coords t) 1 = 8 ∧ win0_4.xsize (grid0.coords t) 2 = 128 :=
  (by decide +kernel : ∀ t : Fin grid0.N, win0_4.xsize (grid0.coords t) 0 = 1 ∧ win0_4.xsize (grid0.coords t) 1 = 8 ∧ win0_4.xsize (grid0.coords t) 2 = 128)

/-- The two flushed blocks cover the output array, so it ends holding them. -/
theorem final : (dats m 0 c).arrAt 4 cfg0.N = outArr m c :=
  (dats m 0 c).arrAt_eq_of_cover 4 (outArr m c) (flushed_eq m c) fun i => by
    have hi0 : (i 0).val < 2 := (i 0).isLt
    have hN : cfg0.N = 16 := N_0
    have hlt : 8 * (i 0).val + 7 < cfg0.N := by omega
    refine ⟨⟨8 * (i 0).val + 7, hlt⟩, (flush0_4 _).mpr (by dsimp only; omega), ?_⟩
    show i ∈ ((View.whole main_call0_v7).slice (win0_4.rect ⟨8 * (i 0).val + 7, hlt⟩)).set
    rw [View.set_slice_whole, Rect.mem_set_unit]
    intro a
    have hi1 : (i 1).val < 8 := (i 1).isLt
    have hi2 : (i 2).val < 128 := (i 2).isLt
    match a with
    | ⟨0, _⟩ =>
      show win0_4.index ⟨8 * (i 0).val + 7, hlt⟩ 0 * 1 ≤ (i 0).val
        ∧ (i 0).val < win0_4.index ⟨8 * (i 0).val + 7, hlt⟩ 0 * 1 + win0_4.xsize (grid0.coords ⟨8 * (i 0).val + 7, hlt⟩) 0
      rw [(idx_out ⟨8 * (i 0).val + 7, hlt⟩).1, (xsize_out ⟨8 * (i 0).val + 7, hlt⟩).1]
      dsimp only
      omega
    | ⟨1, _⟩ =>
      show win0_4.index ⟨8 * (i 0).val + 7, hlt⟩ 1 * 8 ≤ (i 1).val
        ∧ (i 1).val < win0_4.index ⟨8 * (i 0).val + 7, hlt⟩ 1 * 8 + win0_4.xsize (grid0.coords ⟨8 * (i 0).val + 7, hlt⟩) 1
      rw [(idx_out ⟨8 * (i 0).val + 7, hlt⟩).2.1, (xsize_out ⟨8 * (i 0).val + 7, hlt⟩).2.1]
      omega
    | ⟨2, _⟩ =>
      show win0_4.index ⟨8 * (i 0).val + 7, hlt⟩ 2 * 128 ≤ (i 2).val
        ∧ (i 2).val < win0_4.index ⟨8 * (i 0).val + 7, hlt⟩ 2 * 128 + win0_4.xsize (grid0.coords ⟨8 * (i 0).val + 7, hlt⟩) 2
      rw [(idx_out ⟨8 * (i 0).val + 7, hlt⟩).2.2, (xsize_out ⟨8 * (i 0).val + 7, hlt⟩).2.2]
      omega

/-! ## Its total -/

/-- The output array's total: the two rows' output blocks' totals. -/
theorem outArr_total (h7 : 8 * 0 + 7 < cfg0.N) (h15 : 8 * 1 + 7 < cfg0.N) {M : Type*} [AddCommMonoid M] (g : F .f32 → M) :
    ∑ idx : S2x8x128.Idx, g (outArr m c idx)
      = ∑ y : S1x8x128.Idx, g ((outsAt0 m c (8 * 0 + 7) h7).1 y) + ∑ y : S1x8x128.Idx, g ((outsAt0 m c (8 * 1 + 7) h15).1 y) := by
  rw [sum_leadBlocks, Fin.sum_univ_two]
  have unit_eq : ∀ y : S1x8x128.Idx,
      ix3 (0 : Fin 1) (⟨(y 1).val, (y 1).isLt⟩ : Fin 8) (⟨(y 2).val, (y 2).isLt⟩ : Fin 128) = y := fun y => by
    funext d
    match d with
    | ⟨0, _⟩ => exact Fin.ext (by have h : (y 0).val < 1 := (y 0).isLt; show 0 = (y 0).val; omega)
    | ⟨1, _⟩ => rfl
    | ⟨2, _⟩ => rfl
  refine congrArg₂ (· + ·) (Finset.sum_congr rfl fun y _ => congrArg g ?_) (Finset.sum_congr rfl fun y _ => congrArg g ?_)
  · show rowOut m c (8 * 0 + 7) (ix3 (0 : Fin 1) (⟨(y 1).val, (y 1).isLt⟩ : Fin 8) (⟨(y 2).val, (y 2).isLt⟩ : Fin 128)) = _
    rw [rowOut_eq m c _ h7, unit_eq]
  · show rowOut m c (8 * 1 + 7) (ix3 (0 : Fin 1) (⟨(y 1).val, (y 1).isLt⟩ : Fin 8) (⟨(y 2).val, (y 2).isLt⟩ : Fin 128)) = _
    rw [rowOut_eq m c _ h15, unit_eq]

end Cert.KernelIdeal.OutValue

end
-- ==== Proof.Pieces.lean ====
/-
  What one run of the body leaves behind, as values.

  The body has three control cases. At the first point of a core's row of the grid it zeroes the accumulator and then
  adds the block's partial sums to it; at the later points it adds the block's partial sums to the accumulator the
  point before left; at the last point of the row it also copies the new accumulator to the output block. Each
  statement below reads the stores the run found back as the stored payload of the loaded blocks — at any float
  instance, since nothing here depends on what the float operations mean.
-/
import proofs.«173780_j43757126811747_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.PieceValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S512x4096 .f32) (harg2 : arg2.IsWhole)
  (arg3 : Memref sig .tc .vmem S512x4096 .f32) (harg3 : arg3.IsWhole)
  (arg4 : Memref sig .tc .vmem S512x4096 .f32) (harg4 : arg4.IsWhole)
  (arg5 : Memref sig .tc .vmem S512x1 .f32) (harg5 : arg5.IsWhole)
  (arg6 : Memref sig .tc .vmem S1x8x128 .f32) (harg6 : arg6.IsWhole)
  (arg7 : Memref sig .tc .vmem S8x128 .f32) (harg7 : arg7.IsWhole)
  (x0 x1 x2 : Vec F S512x4096 .f32) (x3 : Vec F S512x1 .f32) (xs0 : Vec F S8x128 .f32)

/-- A later point that is not the row's last: the accumulator the point before left, plus this block's partial sums. -/
theorem scratch_B (hc0 : ¬cond0_0 i) (hc1 : ¬cond0_1 i) :
    sout0_B_0 c i arg2 harg2 arg3 harg3 arg4 harg4 arg5 harg5 arg6 harg6 arg7 harg7 hc0 hc1 x0 x1 x2 x3 xs0
      = k0_pay1 (k0_pay5 x0) (k0_pay6 x0 x1) (k0_pay7 x0 x2 x3) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S512x4096) hz2, View.ld_unit_zero (S := S512x1) hz2, View.ld_unit_zero (S := S8x128) hz2]

/-- The first point of a row. -/
theorem scratch_A (hc0 : cond0_0 i) (hc1 : ¬cond0_1 i) :
    sout0_A_0 c i arg2 harg2 arg3 harg3 arg4 harg4 arg5 harg5 arg6 harg6 arg7 harg7 hc0 hc1 x0 x1 x2 x3
      = k0_pay1 (k0_pay5 x0) (k0_pay6 x0 x1) (k0_pay7 x0 x2 x3) (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg7.read_unread,
    View.ld_unit_zero (S := S512x4096) hz2, View.ld_unit_zero (S := S512x1) hz2, View.ld_unit_zero (S := S8x128) hz2]

/-- The last point of a row: the scratch. -/
theorem scratch_C (hc0 : ¬cond0_0 i) (hc1 : cond0_1 i) :
    sout0_C_0 c i arg2 harg2 arg3 harg3 arg4 harg4 arg5 harg5 arg6 harg6 arg7 harg7 hc0 hc1 x0 x1 x2 x3 xs0
      = k0_pay1 (k0_pay5 x0) (k0_pay6 x0 x1) (k0_pay7 x0 x2 x3) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S512x4096) hz2, View.ld_unit_zero (S := S512x1) hz2, View.ld_unit_zero (S := S8x128) hz2]

/-- The last point of a row: the output block. -/
theorem out_C (hc0 : ¬cond0_0 i) (hc1 : cond0_1 i) :
    out0_C_4 c i arg2 harg2 arg3 harg3 arg4 harg4 arg5 harg5 arg6 harg6 arg7 harg7 hc0 hc1 x0 x1 x2 x3 xs0
      = k0_pay2 (k0_pay1 (k0_pay5 x0) (k0_pay6 x0 x1) (k0_pay7 x0 x2 x3) xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S8x128) _ hz2]
  simp only [View.readAt_eq_ld, harg2.read_unread, harg3.read_unread, harg4.read_unread, harg5.read_unread, harg7.read_unread,
    View.ld_unit_zero (S := S512x4096) hz2, View.ld_unit_zero (S := S512x1) hz2, View.ld_unit_zero (S := S8x128) hz2]

/-! ## Point by point -/

section Points

variable (m : (ℓ : Loc nD τ sig) → Buf (Elt F) ℓ)

/-- The block's partial sums added to an accumulator `a`, at point `t`: the payload over the point's four blocks. -/
def added (t : Fin cfg0.N) (a : Vec F S8x128 .f32) : Vec F S8x128 .f32 :=
  k0_pay1 (k0_pay5 (iblk m c 0 t)) (k0_pay6 (iblk m c 0 t) (iblk m c 1 t)) (k0_pay7 (iblk m c 0 t) (iblk m c 2 t) (iblk m c 3 t)) a

/-- After a row's first point the accumulator is the zero array plus the block's partial sums. -/
theorem acc_first (t : Fin cfg0.N) (h0 : t.val % 8 = 0) (h1 : ¬t.val % 8 = 7) :
    (outsAt0 m c t.val t.isLt).2 = added c m t (k0_pay3 (F := F)) := by
  rw [outsAt0_A m c t h0 h1]
  exact scratch_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0) (fun h => h1 ((hcond0_1 t).mp h))

/-- After a middle point it is what the point before left plus the block's partial sums. -/
theorem acc_middle (t : Fin cfg0.N) (h0 : ¬t.val % 8 = 0) (h1 : ¬t.val % 8 = 7) :
    (outsAt0 m c t.val t.isLt).2
      = added c m t (outsAt0 m c (t.val - 1) (Nat.lt_of_le_of_lt (Nat.sub_le _ _) t.isLt)).2 := by
  rw [outsAt0_B m c t h0 h1]
  exact scratch_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (outsAt0 m c (t.val - 1) (Nat.lt_of_le_of_lt (Nat.sub_le _ _) t.isLt)).2
    (fun h => h0 ((hcond0_0 t).mp h)) (fun h => h1 ((hcond0_1 t).mp h))

/-- After a row's last point likewise, -/
theorem acc_last (t : Fin cfg0.N) (h0 : ¬t.val % 8 = 0) (h1 : t.val % 8 = 7) :
    (outsAt0 m c t.val t.isLt).2
      = added c m t (outsAt0 m c (t.val - 1) (Nat.lt_of_le_of_lt (Nat.sub_le _ _) t.isLt)).2 := by
  rw [outsAt0_C m c t h0 h1]
  exact scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (outsAt0 m c (t.val - 1) (Nat.lt_of_le_of_lt (Nat.sub_le _ _) t.isLt)).2
    (fun h => h0 ((hcond0_0 t).mp h)) ((hcond0_1 t).mpr h1)

/-- and the output block holds a copy of that accumulator. -/
theorem out_last (t : Fin cfg0.N) (h0 : ¬t.val % 8 = 0) (h1 : t.val % 8 = 7) :
    (outsAt0 m c t.val t.isLt).1 = k0_pay2 (outsAt0 m c t.val t.isLt).2 := by
  rw [acc_last c m t h0 h1, outsAt0_C m c t h0 h1]
  exact out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (outsAt0 m c (t.val - 1) (Nat.lt_of_le_of_lt (Nat.sub_le _ _) t.isLt)).2
    (fun h => h0 ((hcond0_0 t).mp h)) ((hcond0_1 t).mpr h1)

end Points

end Cert.KernelIdeal.PieceValue

end
-- ==== Proof.LossTerm.lean ====
/-
  The loss, element by element, on the extended reals.

  For a prediction `o`, a second prediction `c`, a label `l` and a row weight `w` the loss adds three terms:
  the weighted cross entropy `-(l · max (log o) (-100) + (1 - l) · max (log (1 + (-o))) (-100)) · w`, the squared
  distance `(o - s)²` of the prediction to its sharpened value `s` and the squared distance `(c - s)²` of the second
  prediction to the same value, where `s = o + (1 - o) / 4` above one half and `o - o / 4` otherwise. The total loss is
  the sum of the three terms over all entries, divided by the number of rows.

  One program adds the three terms entry by entry and sums once; the other sums each term over all entries and adds
  the three sums. Addition on the extended reals is commutative and associative, so the two agree with no
  finiteness assumption (`sum_terms`).
-/
import Idealize.ShloMosaic.PureOps.Ideal.Laws
import Idealize.ShloMosaic.Lib.ValueIdx

noncomputable section

open scoped BigOperators

namespace Cert.Loss

open Idealize.ShloMosaic

/-- The sharpened prediction: pushed a quarter of the way to one above one half, a quarter of the way to zero
    otherwise. -/
def sharp (o : EReal) : EReal :=
  Scalar.select (Ideal.cmp .ogt o (Ideal.ofBits .f32 0x3F000000#32))
    (o + Ideal.div (Ideal.ofBits .f32 0x3F800000#32 - o) (Ideal.ofBits .f32 0x40800000#32))
    (o - Ideal.div o (Ideal.ofBits .f32 0x40800000#32))

/-- The clamped cross entropy before its sign: `l · max (log o) (-100) + (1 - l) · max (log1p (-o)) (-100)`. -/
def entropy (o l : EReal) : EReal :=
  l * max (Ideal.log o) (Ideal.ofBits .f32 0xC2C80000#32)
    + (Ideal.ofBits .f32 0x3F800000#32 - l) * max (Ideal.log1p (-o)) (Ideal.ofBits .f32 0xC2C80000#32)

/-- The weighted cross-entropy term. -/
def termE (o l w : EReal) : EReal := -(entropy o l) * w
/-- The squared distance of the prediction to its sharpened value. -/
def termP (o : EReal) : EReal := (o - sharp o) * (o - sharp o)
/-- The squared distance of the second prediction to the sharpened value. -/
def termC (o c : EReal) : EReal := (c - sharp o) * (c - sharp o)
/-- One entry's loss: the three terms added, in the order the entrywise program adds them. -/
def total (o c l w : EReal) : EReal := termE o l w + termP o + termC o c

/-- The entrywise program writes the two negations as differences from the zero word. -/
theorem total_of_zero_sub (o c l w : EReal) :
    (Ideal.ofBits .f32 0x00000000#32 - (l * max (Ideal.log o) (Ideal.ofBits .f32 0xC2C80000#32)
        + (Ideal.ofBits .f32 0x3F800000#32 - l) * max (Ideal.log1p (Ideal.ofBits .f32 0x00000000#32 - o)) (Ideal.ofBits .f32 0xC2C80000#32))) * w
      + (o - sharp o) * (o - sharp o) + (c - sharp o) * (c - sharp o) = total o c l w := by
  rw [Ideal.ofBits_zero_f32, zero_sub, zero_sub]
  rfl

/-- Summing the entries' losses is adding the three terms' sums: the cross entropy's, then the second
    prediction's, then the prediction's — each a sum from zero, as a whole-array sum computes it. -/
theorem sum_terms {ι : Type*} [Fintype ι] (e p c : ι → EReal) :
    (0 : EReal) + ∑ i, (e i + p i + c i) = ((0 + ∑ i, e i) + (0 + ∑ i, c i)) + (0 + ∑ i, p i) := by
  rw [Finset.sum_add_distrib, Finset.sum_add_distrib, zero_add, zero_add, zero_add, zero_add]
  exact add_right_comm _ _ _

end Cert.Loss

end
-- ==== Proof.LibSumReshape.lean ====
/-
  Sums over index sets of arrays, re-indexed.

  A reshape keeps the elements and their row-major order, so it is a bijection of index sets and a sum over the
  reshaped array is the sum over the original (`sum_reshapeEquiv`, `sum_shapeCast`). A rank-1 index set is its one
  coordinate range (`sum_idx1`). A rank-2 array of `m * n` rows cut into `m` consecutive blocks of `n` rows: the sum
  over the array is the sum over the blocks of each block's sum, the element `(r, l)` of block `t` being the
  array's `(n * t + r, l)` (`blockIdx`, `sum_rowBlocks`).
-/
import Idealize.ShloMosaic.Lib.ValueIdx

noncomputable section

open scoped BigOperators

namespace Idealize.ShloMosaic.SumReshape

open Idealize.ShloMosaic Idealize.ShloMosaic.ValueIdx

variable {M : Type*} [AddCommMonoid M]

/-- A sum read through the reshape bijection is the sum itself. -/
theorem sum_reshapeEquiv {s t : Shape} (h : t.numel = s.numel) (f : s.Idx → M) :
    ∑ j : t.Idx, f (Shape.reshapeEquiv h j) = ∑ i : s.Idx, f i :=
  Equiv.sum_comp (Shape.reshapeEquiv h) f

/-- The sum of the elements of a shape cast is the sum of the elements. -/
theorem sum_shapeCast_self {N : Type} [AddCommMonoid N] {s t : Shape} (x : s.Idx → N) (h : s.ShapeCasts t) :
    ∑ j : t.Idx, shapeCast t x h j = ∑ i : s.Idx, x i :=
  sum_reshapeEquiv h x

/-- The sum of a function of the elements of a shape cast is the sum of that function of the elements. -/
theorem sum_shapeCast {s t : Shape} {α : Type} (x : s.Idx → α) (h : s.ShapeCasts t) (g : α → M) :
    ∑ j : t.Idx, g (shapeCast t x h j) = ∑ i : s.Idx, g (x i) :=
  sum_reshapeEquiv h fun i => g (x i)

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) :=
  (Equiv.sum_comp (idxEquiv1 (n := n)).symm f).symm

/-- Row `r` of block `t`, of `n` rows each, is row `n * t + r`. -/
def blockRow {m n : Nat} (t : Fin m) (r : Fin n) : Fin (m * n) :=
  ⟨n * t.val + r.val, by
    have h1 := t.isLt; have h2 := r.isLt
    calc n * t.val + r.val < n * t.val + n := by omega
      _ = n * (t.val + 1) := by ring
      _ ≤ n * m := Nat.mul_le_mul_left _ h1
      _ = m * n := Nat.mul_comm _ _⟩

theorem blockRow_val {m n : Nat} (t : Fin m) (r : Fin n) : (blockRow t r).val = n * t.val + r.val := rfl

/-- The rows of `m` consecutive blocks of `n` rows are all the `m * n` rows, each once. -/
theorem sum_blockRow {m n : Nat} (f : Fin (m * n) → M) : ∑ a, f a = ∑ t : Fin m, ∑ r : Fin n, f (blockRow t r) := by
  rw [← Fintype.sum_prod_type', ← Equiv.sum_comp finProdFinEquiv f]
  refine Finset.sum_congr rfl fun p _ => congrArg f (Fin.ext ?_)
  show p.2.val + n * p.1.val = n * p.1.val + p.2.val
  omega

/-- Entry `y` of block `t`, in the array of `N = m * n` rows: row `n * t + y₀`, column `y₁`. -/
def blockIdx {N k : Nat} (m n : Nat) (hN : N = m * n) (t : Fin m) (y : (⟨2, ![n, k]⟩ : Shape).Idx) :
    (⟨2, ![N, k]⟩ : Shape).Idx :=
  ix2 ⟨n * t.val + (y 0).val, by subst hN; exact (blockRow t ⟨(y 0).val, idx2_lt0 y⟩).isLt⟩ ⟨(y 1).val, idx2_lt1 y⟩

theorem blockIdx_row {N k : Nat} (m n : Nat) (hN : N = m * n) (t : Fin m) (y : (⟨2, ![n, k]⟩ : Shape).Idx) :
    (blockIdx m n hN t y 0).val = n * t.val + (y 0).val := rfl

theorem blockIdx_col {N k : Nat} (m n : Nat) (hN : N = m * n) (t : Fin m) (y : (⟨2, ![n, k]⟩ : Shape).Idx) :
    (blockIdx m n hN t y 1).val = (y 1).val := rfl

/-- A sum over an array of `N = m * n` rows is the sum over its `m` row blocks of the blocks' sums. -/
theorem sum_rowBlocks {N k : Nat} (m n : Nat) (hN : N = m * n) (f : (⟨2, ![N, k]⟩ : Shape).Idx → M) :
    ∑ i, f i = ∑ t : Fin m, ∑ y : (⟨2, ![n, k]⟩ : Shape).Idx, f (blockIdx m n hN t y) := by
  subst hN
  rw [sum_idx2, sum_blockRow]
  refine Finset.sum_congr rfl fun t _ => ?_
  rw [sum_idx2]
  rfl

end Idealize.ShloMosaic.SumReshape

end
-- ==== Proof.LibSumReduce.lean ====
/-
  The total of an add-reduction is the total of its source.

  A float add-reduction of an array over some of its axes, read on the extended reals, holds at each kept index the sum
  of the source entries that drop to that index. Every source entry drops to exactly one kept index, so summing the
  result over all kept indices sums every source entry once: `sum_reduceAdd`, and for the vector program's
  `multi_reduction <add>` `sum_multiReduction_add`. No finiteness is needed: the extended reals are a commutative
  monoid under addition.
-/
import Idealize.ShloMosaic.PureOps.Ideal.Laws

noncomputable section

open scoped BigOperators

namespace Idealize.ShloMosaic.SumReduce

open Idealize.ShloMosaic

/-- Summing an add-reduction's result over its indices is summing the source over its indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for a vector program's `multi_reduction <add>` at the ideal values, over any axes. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i :=
  sum_reduceAdd h src

/-- The host's add-reduction likewise: each result entry starts from the initial value. -/
theorem sum_hostReduceAdd {s t : Shape} {axes : List (Fin s.rank)} (h : s.ReducesTo axes t) (x : s.Idx → EReal) (init : EReal) :
    ∑ j : t.Idx, Ideal.hostReduceAdd h x init j = ∑ _j : t.Idx, init + ∑ i : s.Idx, x i := by
  unfold Ideal.hostReduceAdd
  rw [Finset.sum_add_distrib]
  exact congrArg _ (Finset.sum_fiberwise Finset.univ (fun i => h.drop i) x)

end Idealize.ShloMosaic.SumReduce

end
-- ==== Proof.BlockTotal.lean ====
/-
  One grid point's contribution, summed.

  At a grid point the body holds a 512 x 4096 block of each of the three float arguments and the block's 512 row
  weights. It forms each entry's loss, adds the 32 lane groups of every row, then the 64 groups of eight rows, and adds
  the resulting 8 x 128 array of partial sums to the accumulator. Both regroupings only rearrange a finite sum, so the
  total of the new accumulator is the total of the old one plus the sum of the block's entry losses
  (`accumulate_total`).
-/
import proofs.«173780_j43757126811747_2_alg».proof.Proof.Gen.KernelIdeal.Skeleton
import proofs.«173780_j43757126811747_2_alg».proof.Proof.LossTerm
import proofs.«173780_j43757126811747_2_alg».proof.Proof.LibSumReshape
import proofs.«173780_j43757126811747_2_alg».proof.Proof.LibSumReduce
import Idealize.ShloMosaic.Lib.Pipeline.Value

noncomputable section

open scoped BigOperators

namespace Cert.KernelIdeal.BlockValue

open Cert.KernelIdeal Cert.KernelIdeal.Gen Idealize.ShloMosaic Idealize.ShloMosaic.ValueIdx
open Idealize.ShloMosaic.SumReshape Idealize.ShloMosaic.SumReduce Cert.Loss

/-- The row-weight entry that belongs to entry `j` of a block: the same row, the weight column's one lane. -/
def rowOf (j : S512x4096.Idx) : S512x1.Idx := ix2 (⟨(j 0).val, idx2_lt0 j⟩ : Fin 512) (0 : Fin 1)

/-- The weight column broadcast along the lanes, read at an entry, is that entry's row weight. -/
theorem weight_apply (x3 : Vec Ideal S512x1 .f32) (j : S512x4096.Idx) :
    broadcastTo S512x4096 (shapeCast S512x1 x3 shapeCasts_S512x1_S512x1) broadcasts_S512x1_S512x4096 j = x3 (rowOf j) := by
  rw [shapeCast_self]
  exact broadcastTo_apply x3 _ j (rowOf j) (fun a => match a with
    | ⟨0, _⟩ => by show (j 0).val = if (512 : Nat) = 1 then 0 else (j 0).val; rw [if_neg (by decide)]
    | ⟨1, _⟩ => by show 0 = if (1 : Nat) = 1 then 0 else (j 1).val; rw [if_pos rfl])

/-- The prediction minus its sharpened value, at an entry. -/
theorem pay5_apply (x0 : Vec Ideal S512x4096 .f32) (j : S512x4096.Idx) : k0_pay5 x0 j = x0 j - sharp (x0 j) := rfl
/-- The second prediction minus the sharpened value, at an entry. -/
theorem pay6_apply (x0 x1 : Vec Ideal S512x4096 .f32) (j : S512x4096.Idx) : k0_pay6 x0 x1 j = x1 j - sharp (x0 j) := rfl

/-- The weighted cross entropy at an entry, the negations written as differences from the zero word. -/
theorem pay7_apply (x0 x2 : Vec Ideal S512x4096 .f32) (x3 : Vec Ideal S512x1 .f32) (j : S512x4096.Idx) :
    k0_pay7 x0 x2 x3 j
      = (Ideal.ofBits .f32 0x00000000#32 - (x2 j * max (Ideal.log (x0 j)) (Ideal.ofBits .f32 0xC2C80000#32)
          + (Ideal.ofBits .f32 0x3F800000#32 - x2 j) * max (Ideal.log1p (Ideal.ofBits .f32 0x00000000#32 - x0 j)) (Ideal.ofBits .f32 0xC2C80000#32)))
        * x3 (rowOf j) := by
  unfold k0_pay7
  show _ * broadcastTo S512x4096 (shapeCast S512x1 x3 shapeCasts_S512x1_S512x1) broadcasts_S512x1_S512x4096 j = _
  rw [weight_apply]
  rfl

/-- The accumulator after a point: its old total plus the sum of the block's entry losses. -/
theorem accumulate_total (x0 x1 x2 : Vec Ideal S512x4096 .f32) (x3 : Vec Ideal S512x1 .f32) (acc : Vec Ideal S8x128 .f32) :
    ∑ y, k0_pay1 (k0_pay5 x0) (k0_pay6 x0 x1) (k0_pay7 x0 x2 x3) acc y
      = ∑ y, acc y + ∑ j : S512x4096.Idx, total (x0 j) (x1 j) (x2 j) (x3 (rowOf j)) := by
  unfold k0_pay1
  rw [sum_shapeCast_self]
  show ∑ y, (acc y + Ideal.reduceAdd reduces_S64x8x128_S8x128 (shapeCast S64x8x128
    (Ideal.reduceAdd reduces_S512x32x128_S512x128 (shapeCast S512x32x128
      (addf (addf (k0_pay7 x0 x2 x3) (mulf (k0_pay5 x0) (k0_pay5 x0))) (mulf (k0_pay6 x0 x1) (k0_pay6 x0 x1)))
      shapeCasts_S512x4096_S512x32x128)) shapeCasts_S512x128_S64x8x128) y) = _
  rw [Finset.sum_add_distrib, sum_reduceAdd, sum_shapeCast_self, sum_reduceAdd, sum_shapeCast_self]
  refine congrArg _ (Finset.sum_congr rfl fun j _ => ?_)
  show (k0_pay7 x0 x2 x3 j + k0_pay5 x0 j * k0_pay5 x0 j) + k0_pay6 x0 x1 j * k0_pay6 x0 x1 j = _
  rw [pay7_apply, pay5_apply, pay6_apply]
  exact total_of_zero_sub _ _ _ _

/-- The zeroed accumulator has total zero. -/
theorem zero_total : ∑ y, (k0_pay3 (F := Ideal)) y = 0 := by
  unfold k0_pay3
  rw [sum_shapeCast_self]
  show ∑ _y : S8x128.Idx, Ideal.ofBits .f32 0x00000000#32 = 0
  rw [Ideal.ofBits_zero_f32]
  exact Finset.sum_const_zero

/-- The accumulator copied out as a one-block array keeps its total. -/
theorem copy_total (acc : Vec Ideal S8x128 .f32) : ∑ y, k0_pay2 acc y = ∑ y, acc y := by
  unfold k0_pay2
  exact sum_shapeCast_self _ _

end Cert.KernelIdeal.BlockValue

end
-- ==== Proof.RowTotal.lean ====
/-
  The accumulator along a core's row of the grid, and the output block it ends in.

  Point `n` of the grid holds block `n` of the arguments: rows `512 n` to `512 n + 511`. Write `L n` for the sum of the
  losses of that block's entries. Along the eight points `8 k, …, 8 k + 7` that one core runs, the accumulator starts
  from zero and gains the block's regrouped partial sums at every point, so after point `n` its total is
  `L (8 k) + … + L n` (`acc_total`, by induction on the point). At the row's last point the accumulator is copied to the
  output block, whose total is therefore `L (8 k) + … + L (8 k + 7)` (`row_total`).
-/
import proofs.«173780_j43757126811747_2_alg».proof.Proof.Pieces
import proofs.«173780_j43757126811747_2_alg».proof.Proof.BlockTotal

noncomputable section

open scoped BigOperators

open Idealize.ShloMosaic Idealize.ShloMosaic.TcCoe Idealize.SL.Sem

namespace Cert.KernelIdeal.RowValue

open Cert.KernelIdeal Cert.KernelIdeal.Gen Cert.KernelIdeal.PieceValue Cert.KernelIdeal.BlockValue Cert.Loss

variable (m : (ℓ : Loc nD τ sig) → Buf (Elt Ideal) ℓ) (c : Dev nD)

/-- The sum of the losses of the entries of the block that point `n` holds (zero past the grid). -/
def blockLoss (n : ℕ) : EReal :=
  if h : n < cfg0.N then
    ∑ j : S512x4096.Idx, total ((iblk m c 0 ⟨n, h⟩ : Vec Ideal S512x4096 .f32) j) ((iblk m c 1 ⟨n, h⟩ : Vec Ideal S512x4096 .f32) j)
      ((iblk m c 2 ⟨n, h⟩ : Vec Ideal S512x4096 .f32) j) ((iblk m c 3 ⟨n, h⟩ : Vec Ideal S512x1 .f32) (rowOf j))
  else 0

/-- Adding a point's partial sums to an accumulator adds the block's loss to its total. -/
theorem added_total (t : Fin cfg0.N) (a : Vec Ideal S8x128 .f32) :
    ∑ y, added c m t a y = ∑ y, a y + blockLoss m c t.val := by
  unfold added blockLoss
  rw [dif_pos t.isLt]
  exact accumulate_total _ _ _ _ a

/-- After point `n` the accumulator's total is the loss of the blocks from the row's first point to `n`. -/
theorem acc_total : ∀ (n : ℕ) (h : n < cfg0.N),
    ∑ y, (outsAt0 m c n h).2 y = ∑ s ∈ Finset.range (n % 8 + 1), blockLoss m c (n - n % 8 + s)
  | 0, h => by
    have e := acc_first c m ⟨0, h⟩ rfl (by dsimp only; omega)
    rw [show (outsAt0 m c 0 h).2 = _ from e, added_total, zero_total, zero_add]
    simp
  | n + 1, h => by
    by_cases h0 : (n + 1) % 8 = 0
    · have e := acc_first c m ⟨n + 1, h⟩ h0 (by dsimp only; omega)
      rw [show (outsAt0 m c (n + 1) h).2 = _ from e, added_total, zero_total, zero_add, h0]
      simp
    · have ih := acc_total n (Nat.lt_of_succ_lt h)
      have hstep : ∑ y, (outsAt0 m c (n + 1) h).2 y
          = ∑ y, (outsAt0 m c n (Nat.lt_of_succ_lt h)).2 y + blockLoss m c (n + 1) := by
        by_cases h1 : (n + 1) % 8 = 7
        · have e := acc_last c m ⟨n + 1, h⟩ h0 h1
          rw [show (outsAt0 m c (n + 1) h).2 = _ from e, added_total]
          rfl
        · have e := acc_middle c m ⟨n + 1, h⟩ h0 h1
          rw [show (outsAt0 m c (n + 1) h).2 = _ from e, added_total]
          rfl
      rw [hstep, ih]
      have e1 : (n + 1) % 8 = n % 8 + 1 := by omega
      have e2 : n + 1 - (n % 8 + 1) = n - n % 8 := by omega
      rw [e1, e2, Finset.sum_range_succ _ (n % 8 + 1)]
      refine congrArg _ (congrArg _ ?_)
      omega

/-- The output block a core's row ends in: its total is the loss of the row's eight blocks. -/
theorem row_total (k : ℕ) (h : 8 * k + 7 < cfg0.N) :
    ∑ y, (outsAt0 m c (8 * k + 7) h).1 y = ∑ s ∈ Finset.range 8, blockLoss m c (8 * k + s) := by
  have e := out_last c m ⟨8 * k + 7, h⟩ (by dsimp only; omega) (by dsimp only; omega)
  rw [show (outsAt0 m c (8 * k + 7) h).1 = _ from e, copy_total]
  have e1 : (8 * k + 7) % 8 = 7 := by omega
  have e2 : 8 * k + 7 - 7 = 8 * k := by omega
  rw [show ∑ y, (outsAt0 m c (⟨8 * k + 7, h⟩ : Fin cfg0.N).val (⟨8 * k + 7, h⟩ : Fin cfg0.N).isLt).2 y = _ from acc_total m c (8 * k + 7) h, e1, e2]

/-- The two rows together: the loss of all sixteen blocks. -/
theorem rows_total (h7 : 8 * 0 + 7 < cfg0.N) (h15 : 8 * 1 + 7 < cfg0.N) :
    ∑ y, (outsAt0 m c (8 * 0 + 7) h7).1 y + ∑ y, (outsAt0 m c (8 * 1 + 7) h15).1 y
      = ∑ n ∈ Finset.range 16, blockLoss m c n := by
  rw [row_total, row_total, show (16 : ℕ) = 8 + 8 from rfl, Finset.sum_range_add]
  simp

end Cert.KernelIdeal.RowValue

end
-- ==== Proof.WholeArray.lean ====
/-
  From the sixteen blocks to the whole arrays.

  Point `n` of the grid is handed rows `512 n … 512 n + 511` of each of the three float arguments and of the column of
  row weights: entry `(r, l)` of its block is entry `(512 n + r, l)` of the array. The sixteen blocks are consecutive and
  disjoint and together hold all 8192 rows, so the sum of the blocks' losses is the sum of the losses of all the entries
  of the arrays (`blocks_total`).
-/
import proofs.«173780_j43757126811747_2_alg».proof.Proof.RowTotal

noncomputable section

open scoped BigOperators

open Idealize.ShloMosaic Idealize.ShloMosaic.TcCoe Idealize.SL.Sem Idealize.ShloMosaic.ValueIdx Idealize.ShloMosaic.SumReshape

namespace Cert.KernelIdeal.ArrayValue

open Cert.KernelIdeal Cert.KernelIdeal.Gen Cert.KernelIdeal.BlockValue Cert.KernelIdeal.RowValue Cert.Loss

variable (m : (ℓ : Loc nD τ sig) → Buf (Elt Ideal) ℓ) (c : Dev nD)

/-- A grid point as one of the sixteen row blocks. -/
def pt (t : Fin cfg0.N) : Fin 16 := ⟨t.val, lt_of_lt_of_eq t.isLt N_0⟩

/-- The row-weight entry of an entry of the whole arrays: the same row, the one lane. -/
def rowIdx (i : S8192x4096.Idx) : S8192x1.Idx := ix2 (⟨(i 0).val, idx2_lt0 i⟩ : Fin 8192) (0 : Fin 1)

/-- Every input window's block index at point `t` is `(t, 0)`. -/
theorem idx_in : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))

/-- The prediction's block at a point reads the prediction array at the block's rows. -/
theorem iblk0_apply (t : Fin cfg0.N) (y : S512x4096.Idx) :
    (iblk m c 0 t : Vec Ideal S512x4096 .f32) y = V m c main_arg0 (blockIdx 16 512 rfl (pt t) y) := by
  unfold iblk
  rw [View.read_apply]
  show V m c main_arg0 _ = V m c main_arg0 _
  refine congrArg _ (funext fun a => Fin.ext ?_)
  match a with
  | ⟨0, _⟩ => show win0_0.index t 0 * 512 + 1 * (y 0).val = 512 * t.val + (y 0).val; rw [(idx_in t).1.1]; omega
  | ⟨1, _⟩ => show win0_0.index t 1 * 4096 + 1 * (y 1).val = (y 1).val; rw [(idx_in t).1.2]; omega

/-- The second prediction's block likewise. -/
theorem iblk1_apply (t : Fin cfg0.N) (y : S512x4096.Idx) :
    (iblk m c 1 t : Vec Ideal S512x4096 .f32) y = V m c main_arg1 (blockIdx 16 512 rfl (pt t) y) := by
  unfold iblk
  rw [View.read_apply]
  show V m c main_arg1 _ = V m c main_arg1 _
  refine congrArg _ (funext fun a => Fin.ext ?_)
  match a with
  | ⟨0, _⟩ => show win0_1.index t 0 * 512 + 1 * (y 0).val = 512 * t.val + (y 0).val; rw [(idx_in t).2.1.1]; omega
  | ⟨1, _⟩ => show win0_1.index t 1 * 4096 + 1 * (y 1).val = (y 1).val; rw [(idx_in t).2.1.2]; omega

/-- The label's block likewise. -/
theorem iblk2_apply (t : Fin cfg0.N) (y : S512x4096.Idx) :
    (iblk m c 2 t : Vec Ideal S512x4096 .f32) y = V m c main_arg2 (blockIdx 16 512 rfl (pt t) y) := by
  unfold iblk
  rw [View.read_apply]
  show V m c main_arg2 _ = V m c main_arg2 _
  refine congrArg _ (funext fun a => Fin.ext ?_)
  match a with
  | ⟨0, _⟩ => show win0_2.index t 0 * 512 + 1 * (y 0).val = 512 * t.val + (y 0).val; rw [(idx_in t).2.2.1.1]; omega
  | ⟨1, _⟩ => show win0_2.index t 1 * 4096 + 1 * (y 1).val = (y 1).val; rw [(idx_in t).2.2.1.2]; omega

/-- The row weights' block likewise: 512 rows of the one-lane column. -/
theorem iblk3_apply (t : Fin cfg0.N) (y : S512x1.Idx) :
    (iblk m c 3 t : Vec Ideal S512x1 .f32) y = V m c main_call0_v6 (blockIdx 16 512 rfl (pt t) y) := by
  unfold iblk
  rw [View.read_apply]
  show V m c main_call0_v6 _ = V m c main_call0_v6 _
  refine congrArg _ (funext fun a => Fin.ext ?_)
  match a with
  | ⟨0, _⟩ => show win0_3.index t 0 * 512 + 1 * (y 0).val = 512 * t.val + (y 0).val; rw [(idx_in t).2.2.2.1]; omega
  | ⟨1, _⟩ => show win0_3.index t 1 * 1 + 1 * (y 1).val = (y 1).val; rw [(idx_in t).2.2.2.2]; omega

/-- The row weight of a block's entry is the array entry's row weight. -/
theorem rowIdx_block (k : Fin 16) (y : S512x4096.Idx) :
    blockIdx 16 512 rfl k (rowOf y) = rowIdx (blockIdx 16 512 rfl k y) := by
  funext a
  match a with
  | ⟨0, _⟩ => rfl
  | ⟨1, _⟩ => rfl

/-- One entry's loss, over the whole arrays as the region finds them. -/
def entryLoss (i : S8192x4096.Idx) : EReal :=
  total (V m c main_arg0 i) (V m c main_arg1 i) (V m c main_arg2 i) (V m c main_call0_v6 (rowIdx i))

/-- A block's loss is the sum of its entries' losses in the arrays. -/
theorem blockLoss_eq (t : Fin cfg0.N) :
    blockLoss m c t.val = ∑ y : S512x4096.Idx, entryLoss m c (blockIdx 16 512 rfl (pt t) y) := by
  unfold blockLoss
  rw [dif_pos t.isLt]
  refine Finset.sum_congr rfl fun y _ => ?_
  rw [iblk0_apply, iblk1_apply, iblk2_apply, iblk3_apply, rowIdx_block]
  rfl

/-- The sixteen blocks' losses add up to the loss of all the entries. -/
theorem blocks_total : ∑ n ∈ Finset.range 16, blockLoss m c n = ∑ i : S8192x4096.Idx, entryLoss m c i := by
  rw [sum_rowBlocks 16 512 rfl (entryLoss m c), Finset.sum_range]
  refine Finset.sum_congr rfl fun k _ => ?_
  exact blockLoss_eq m c ⟨k.val, lt_of_lt_of_eq k.isLt N_0.symm⟩

end Cert.KernelIdeal.ArrayValue

end
-- ==== Proof.KernelRun.lean ====
/-
  The idealized kernel's run, read as a value.

  After the region the program sums the `[2, 8, 128]` output array from zero and divides by the row count 8192. The
  array's total is the two rows' output blocks' totals, that is the loss of the sixteen blocks, that is the loss of all
  the entries of the arguments — so the result is `(0 + Σ entry losses) / 8192` (`tail_eq`, `run`). The row weights the
  region is handed were computed before it: one for a source code of 0 or 1, zero otherwise, as a one-lane column
  (`weights_eq`).
-/
import proofs.«173780_j43757126811747_2_alg».proof.Proof.OutArray
import proofs.«173780_j43757126811747_2_alg».proof.Proof.WholeArray
import proofs.«173780_j43757126811747_2_alg».proof.Proof.LibSumReduce
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.OutValue Cert.KernelIdeal.RowValue Cert.KernelIdeal.ArrayValue Cert.Loss

variable (m : (ℓ : Loc nD τ sig) → Buf (Elt Ideal) ℓ) (ρ : Dev nD → PrngReg)

/-- Points 7 and 15, the rows' last points, are on the grid. -/
theorem lt7 : 8 * 0 + 7 < cfg0.N := by rw [show cfg0.N = 16 from N_0]; decide
theorem lt15 : 8 * 1 + 7 < cfg0.N := by rw [show cfg0.N = 16 from N_0]; decide

/-- The program's result: the loss of all entries, summed from zero and divided by the row count. -/
def result (c : Dev nD) : Buf (Elt Ideal) ((c : Thread nD τ).loc main_v0) := fun _ =>
  Ideal.div (0 + ∑ i : S8192x4096.Idx, entryLoss m c i) (Ideal.ofBits .f32 0x46000000#32)

/-- The output array the lines after the region read is the array the run left. -/
theorem out_eq (c : Dev nD) :
    Pipeline.withArrays (cfgs 0).spec c (V0 m c) (fun w => (dats m 0 c).arrAt w (cfgs 0).N) (Proc.devRef .tc main_call0_v7)
      = outArr m c :=
  (Pipeline.withArrays_arr spec0 launch0.win.arr_inj c _ _ 4).trans (final m c)

/-- The output array's total is the loss of all the entries. -/
theorem out_total (c : Dev nD) :
    ∑ idx : S2x8x128.Idx, (show EReal from outArr m c idx) = ∑ i : S8192x4096.Idx, entryLoss m c i :=
  (outArr_total m c lt7 lt15 (M := EReal) (fun x => x)).trans ((rows_total m c lt7 lt15).trans (blocks_total m c))

/-- The lines after the region compute the quotient of the array's total by the row count. -/
theorem tail_eq (c : Dev nD) : Pipeline.afterTail₀ cfgs (dats m) 0 (V0 m) [hostOps1] c main_v0 = result m c := by
  unfold Pipeline.afterTail₀
  show StableHlo.after hostOps1 _ (Proc.devRef .tc main_v0) = _
  after_results
  show Host.divf (F := Ideal) (Host.reduceAdd (F := Ideal) (Pipeline.withArrays (cfgs 0).spec c (V0 m c) (fun w => (dats m 0 c).arrAt w (cfgs 0).N) (Proc.devRef .tc main_call0_v7))
    (constant (F := Ideal) S_ .f32 0x00000000#32) reducesTo_S2x8x128_S_d0_1_2 h_S_) (constant (F := Ideal) S_ .f32 0x46000000#32) = result m c
  rw [out_eq]
  funext i
  simp only [Host.divf, Host.reduceAdd, Ideal.hostReduceAdd_def]
  rw [Ideal.hostReduceAdd_total reducesTo_S2x8x128_S_d0_1_2 (fun b => b.elim0)]
  show Ideal.div (Ideal.ofBits .f32 0x00000000#32 + ∑ idx : S2x8x128.Idx, (show EReal from outArr m c idx)) (Ideal.ofBits .f32 0x46000000#32) = _
  rw [Ideal.ofBits_zero_f32, out_total]
  rfl

/-- The run, read: the result at the quotient, the arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

/-- The row weights the region finds. -/
theorem weights_eq (c : Dev nD) : V m c main_call0_v6
    = (broadcastInDim S8192x1 ![0] bcast_S8192_S8192x1_0 (uitofp .f32 (ori
        (cmpi .eq (m ((c : Thread nD τ).loc main_arg3)) (broadcastInDim S8192 ![] bcast_S_S8192 (constantI S_ 32 0#32)))
        (cmpi .eq (m ((c : Thread nD τ).loc main_arg3)) (broadcastInDim S8192 ![] bcast_S_S8192 (constantI S_ 32 1#32))))) : S8192x1.Idx → Ideal .f32) := by
  show StableHlo.after hostOps0 (fun b => m (c, b)) (Proc.devRef .tc main_call0_v6) = _
  after_results
  rfl

end Cert.KernelIdeal.RunValue

end
-- ==== Proof.RefValue.lean ====
/-
  The plain program's result, read on the extended reals.

  The plain program forms the three terms of the loss as whole arrays, sums each over all entries from zero, adds the
  cross entropy's sum and the second prediction's, then the prediction's, and divides by the number of rows. Read entry by entry,
  its three arrays are the three terms of `Cert.Loss` (`entropy_apply`, `distance_apply`, `distance2_apply`), so its
  result is the quotient of the three sums (`result_apply`).
-/
import proofs.«173780_j43757126811747_2_alg».proof.Proof.Gen.ReferenceIdeal.Read
import proofs.«173780_j43757126811747_2_alg».proof.Proof.LossTerm

noncomputable section

open scoped BigOperators

open Idealize.ShloMosaic Idealize.ShloMosaic.TcCoe Idealize.SL.Sem

namespace Cert.ReferenceIdeal.RefValue

open Cert.ReferenceIdeal Cert.ReferenceIdeal.Read Cert.Loss

variable (x0 x1 x2 : (⟨S8192x4096, .f32⟩ : BufTy).Contents (Elt Ideal)) (x3 : (⟨S8192, .i32⟩ : BufTy).Contents (Elt Ideal))

/-- The sharpened prediction, at an entry. -/
theorem sharp_apply (i : S8192x4096.Idx) : val_main_v33 (F := Ideal) x0 i = sharp (x0 i) := by
  simp only [val_main_v33_apply, val_main_v24_apply, val_main_v29_apply, val_main_v32_apply, val_main_v28_apply,
    val_main_v26_apply, val_main_v31_apply, val_main_v23_apply, val_main_v25_apply, val_main_v27_apply, val_main_v30_apply,
    val_main_cst_4_apply, val_main_cst_5_apply, val_main_cst_6_apply, val_main_cst_7_apply]
  rfl

/-- The weighted cross entropy, at an entry: the weight is the weight column's entry of the same row. -/
theorem entropy_apply (i : S8192x4096.Idx) :
    val_main_v21 (F := Ideal) x0 x2 x3 i = termE (x0 i) (x2 i) (val_main_v19 (F := Ideal) x3 (idx_main_v20 i)) := by
  simp only [val_main_v21_apply, val_main_v12_apply, val_main_v11_apply, val_main_v7_apply, val_main_v10_apply,
    val_main_v2_apply, val_main_v0_apply, val_main_v1_apply, val_main_cst_apply, val_main_v9_apply, val_main_v8_apply,
    val_main_cst_1_apply, val_main_v6_apply, val_main_v4_apply, val_main_v3_apply, val_main_v5_apply, val_main_cst_0_apply,
    val_main_v20_apply]
  rfl

/-- The prediction's squared distance to its sharpened value, at an entry. -/
theorem distance_apply (i : S8192x4096.Idx) : val_main_v35 (F := Ideal) x0 i = termP (x0 i) := by
  simp only [val_main_v35_apply, val_main_v34_apply, sharp_apply]
  rfl

/-- The second prediction's squared distance to the sharpened value, at an entry. -/
theorem distance2_apply (i : S8192x4096.Idx) : val_main_v38 (F := Ideal) x0 x1 i = termC (x0 i) (x1 i) := by
  simp only [val_main_v38_apply, val_main_v37_apply, sharp_apply]
  rfl

/-- The result: the three sums, each from zero, added and divided by the row count. -/
theorem result_apply (i : S_.Idx) :
    val_main_v42 (F := Ideal) x0 x1 x2 x3 i
      = Ideal.div (((0 + ∑ j, termE (x0 j) (x2 j) (val_main_v19 (F := Ideal) x3 (idx_main_v20 j))) + (0 + ∑ j, termC (x0 j) (x1 j)))
          + (0 + ∑ j, termP (x0 j))) (Ideal.ofBits .f32 0x46000000#32) := by
  rw [val_main_v42_apply, val_main_v41_apply, val_main_v40_apply, val_main_v22_apply, val_main_v39_apply, val_main_v36_apply,
    val_main_cst_3_apply, val_main_cst_8_apply, val_main_cst_9_apply, val_main_cst_10_apply]
  simp only [entropy_apply, distance_apply, distance2_apply]
  show Ideal.div (((Ideal.ofBits .f32 0x00000000#32 + _) + (Ideal.ofBits .f32 0x00000000#32 + _)) + (Ideal.ofBits .f32 0x00000000#32 + _)) _ = _
  rw [Ideal.ofBits_zero_f32]
  rfl

end Cert.ReferenceIdeal.RefValue

end
-- ==== Proof.Bridge.lean ====
/-
  The two results are one extended real.

  The plain program's result is `((0 + Σ E) + (0 + Σ C)) + (0 + Σ P)` over 8192 for the three terms `E`, `C`, `P` of
  the loss; the blocked program's is `(0 + Σ (E + P + C))` over 8192. A finite sum of sums is the sum of the sums in any
  commutative monoid, and the row weights of the two programs are the same column of the same source codes, so
  the two quotients are equal (`result_eq`) — for every input, finite or not.
-/
import proofs.«173780_j43757126811747_2_alg».proof.Proof.KernelRun
import proofs.«173780_j43757126811747_2_alg».proof.Proof.RefValue

noncomputable section

open scoped BigOperators
open Idealize.ShloMosaic Idealize.ShloMosaic.TcCoe Idealize.SL.Sem

namespace Cert.Bridge

open Cert.KernelIdeal Cert.KernelIdeal.Gen Cert.KernelIdeal.RunValue Cert.KernelIdeal.ArrayValue Cert.Loss

variable (m : (ℓ : Loc nD τ sig) → Buf (Elt Ideal) ℓ)

/-- The plain program's result on the blocked program's arguments is the blocked program's result. -/
theorem result_eq (c : Dev nD) :
    Cert.ReferenceIdeal.Read.val_main_v42 (F := Ideal) (m ((c.tc : Thread nD τ).loc main_arg0)) (m ((c.tc : Thread nD τ).loc main_arg1))
      (m ((c.tc : Thread nD τ).loc main_arg2)) (m ((c.tc : Thread nD τ).loc main_arg3)) = result m c := by
  funext i
  rw [Cert.ReferenceIdeal.RefValue.result_apply]
  unfold result entryLoss total
  rw [V_main_arg0, V_main_arg1, V_main_arg2, weights_eq, sum_terms]
  have hidx : ∀ j, Cert.ReferenceIdeal.Read.idx_main_v20 j = rowIdx j := fun j => funext fun a =>
    match a with
    | ⟨0, _⟩ => rfl
    | ⟨1, _⟩ => rfl
  simp only [hidx]
  rfl

end Cert.Bridge

end
-- ==== Proof.lean ====
/-
  A loss summed two ways.

  Both programs compute, for predictions `o`, second predictions `c`, labels `l` (each 8192 x 4096) and a source code
  per row, the mean over the rows of three terms summed over all entries: a cross entropy with its logarithms clamped
  at -100, counted only in rows whose source code is 0 or 1; the squared distance of `o` to its sharpened value; and the
  squared distance of `c` to that same value. The plain program sums each term over the whole arrays and adds the three
  sums. The blocked program walks sixteen blocks of 512 rows on a 2 x 8 grid; at each point it adds the three terms entry
  by entry, folds the block to an 8 x 128 array of partial sums and adds it to an accumulator that is zeroed at the first
  point of each core's row and copied out at the last; the two copied arrays are summed at the end.

  On the extended reals addition is commutative and associative, so every regrouping of the finite sum is the same
  number and the two quotients by 8192 are equal, with no use of the inputs being finite:
    * an entry's three terms, the same on both sides (Proof/LossTerm.lean, Proof/RefValue.lean, Proof/BlockTotal.lean);
    * a point adds its block's loss to the accumulator's total (Proof/BlockTotal.lean, Proof/Pieces.lean);
    * a row of the grid ends with its eight blocks' loss in the output block (Proof/RowTotal.lean);
    * the sixteen blocks are all the rows (Proof/WholeArray.lean), the two output blocks all of the output array
      (Proof/OutArray.lean);
    * the blocked program's result (Proof/KernelRun.lean) is the plain program's (Proof/Bridge.lean).
  The three frames are the generated runs; the ideal pass rewrote nothing.
-/
import proofs.«173780_j43757126811747_2_alg».proof.Defs
import proofs.«173780_j43757126811747_2_alg».proof.Proof.Gen.Kernel
import proofs.«173780_j43757126811747_2_alg».proof.Proof.Gen.Kernel.Skeleton
import proofs.«173780_j43757126811747_2_alg».proof.Proof.Gen.Kernel.Launch
import proofs.«173780_j43757126811747_2_alg».proof.Proof.Gen.Kernel.Points
import proofs.«173780_j43757126811747_2_alg».proof.Proof.Gen.Kernel.Frame
import proofs.«173780_j43757126811747_2_alg».proof.Proof.Gen.KernelIdeal
import proofs.«173780_j43757126811747_2_alg».proof.Proof.Gen.KernelIdeal.Skeleton
import proofs.«173780_j43757126811747_2_alg».proof.Proof.Gen.KernelIdeal.Launch
import proofs.«173780_j43757126811747_2_alg».proof.Proof.Gen.KernelIdeal.Points
import proofs.«173780_j43757126811747_2_alg».proof.Proof.Gen.KernelIdeal.Frame
import proofs.«173780_j43757126811747_2_alg».proof.Proof.Gen.ReferenceIdeal
import proofs.«173780_j43757126811747_2_alg».proof.Proof.Gen.Pre_finite_inputs
import proofs.«173780_j43757126811747_2_alg».proof.Proof.Gen.ReferenceIdeal.Run
import proofs.«173780_j43757126811747_2_alg».proof.Proof.Gen.ReferenceIdeal.Read
import proofs.«173780_j43757126811747_2_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The plain program's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree the two programs end at the same quotient. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
